-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S128x256 : Shape := ⟨2, ![128, 256]⟩
abbrev S256x128 : Shape := ⟨2, ![256, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S16x256x128x128 .f32) (main_arg1 : FVec F S128x256 .f32) (main_arg2 : FVec F S256x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S16x256x128x128 : Shape := ⟨4, ![16, 256, 128, 128]⟩
abbrev S128x256 : Shape := ⟨2, ![128, 256]⟩
abbrev S256x128 : Shape := ⟨2, ![256, 128]⟩
abbrev S16x1x256 : Shape := ⟨3, ![16, 1, 256]⟩
abbrev S1x256x128x128 : Shape := ⟨4, ![1, 256, 128, 128]⟩
abbrev S1x1x256 : Shape := ⟨3, ![1, 1, 256]⟩
abbrev S1x256x128 : Shape := ⟨3, ![1, 256, 128]⟩
abbrev S1x256 : Shape := ⟨2, ![1, 256]⟩
abbrev S16x256 : Shape := ⟨2, ![16, 256]⟩
abbrev S16x128 : Shape := ⟨2, ![16, 128]⟩
abbrev S_ : Shape := ⟨0, ![]⟩
abbrev S1x128x128x128 : Shape := ⟨4, ![1, 128, 128, 128]⟩
abbrev S1x1x128 : Shape := ⟨3, ![1, 1, 128]⟩
abbrev S1x128 : Shape := ⟨2, ![1, 128]⟩
abbrev S1x128x1x1 : Shape := ⟨4, ![1, 128, 1, 1]⟩

abbrev nBuf : Space → Nat
  | .hbm => 20
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S256x128, .f32⟩
  | .hbm, ⟨3, _⟩ => ⟨S16x1x256, .f32⟩
  | .hbm, ⟨4, _⟩ => ⟨S16x256, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S16x256, .f32⟩
  | .hbm, ⟨10, _⟩ => ⟨S16x256, .f32⟩
  | .hbm, ⟨11, _⟩ => ⟨S16x256, .f32⟩
  | .hbm, ⟨12, _⟩ => ⟨S_, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x1x256, .f32⟩
  | .hbm, ⟨19, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S1x1x256, .f32⟩
  | .local _ .vmem, ⟨3, _⟩ => ⟨S1x1x256, .f32⟩
  | .local _ .vmem, ⟨4, _⟩ => ⟨S1x128x128x128, .f32⟩
  | .local _ .vmem, ⟨5, _⟩ => ⟨S1x128x128x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128x128, .f32⟩
  | .local _ .vmem, ⟨9, _⟩ => ⟨S1x128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x256x128 : S1x256x128x128.Reduces [2] S1x256x128
  reduces_S1x256x128_S1x256 : S1x256x128.Reduces [2] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S16x1x256_S16x256 : S16x1x256.ShapeCasts S16x256
  bcast_S_S16x128 : S_.BroadcastsInDim S16x128 (![] : Fin 0 → Fin S16x128.rank)
  bcast_S_S16x256 : S_.BroadcastsInDim S16x256 (![] : Fin 0 → Fin S16x256.rank)
  bcast_S16x256_S16x1x256_0_2 : S16x256.BroadcastsInDim S16x1x256 (![0, 2] : Fin 2 → Fin S16x1x256.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x128x1x1 : S1x128.ShapeCasts S1x128x1x1
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x1x1_S1x128x1x1 : S1x128x1x1.ShapeCasts S1x128x1x1
  broadcasts_S1x128x1x1_S1x128x128x128 : S1x128x1x1.Broadcasts S1x128x128x128
  dot_S16x256_S128x256_S16x128_1_1_0_0_n_n_wf : DotDims.WF S16x256 S128x256 S16x128 [1] [1] [0] [0] [] []
  dot_S16x128_S256x128_S16x256_1_1_0_0_n_n_wf : DotDims.WF S16x128 S256x128 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S16x1x256.size a
  hwx0_1 : ∀ i : grid0.Coords, EltTy.bits .f32 = 32 ∨ (Rect.block (s := S16x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128x128.size a ≤ S16x256x128x128.size a
  hwx1_0 : ∀ i : grid1.Coords, EltTy.bits .f32 = 32 ∨ (Rect.block (s := S16x256x128x128) S1x128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S16x1x256.size a
  hwx1_1 : ∀ i : grid1.Coords, EltTy.bits .f32 = 32 ∨ (Rect.block (s := S16x1x256) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S16x256x128x128.size a
  hwx1_2 : ∀ i : grid1.Coords, EltTy.bits .f32 = 32 ∨ (Rect.block (s := S16x256x128x128) S1x128x128x128.size (cc1_transform_2 i) (hinb1_2 i)).WholeWords (EltTy.packing .f32)

variable [Facts₀]

def dot_S16x256_S128x256_S16x128_1_1_0_0_n_n : DotDims S16x256 S128x256 S16x128 where
  lhsContracting := [1]
  rhsContracting := [1]
  lhsNonContracting := [0]
  rhsNonContracting := [0]
  lhsBatch := []
  rhsBatch := []
  wf := dot_S16x256_S128x256_S16x128_1_1_0_0_n_n_wf
def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S128x256 : Shape := ⟨2, ![128, 256]⟩
abbrev S256x128 : Shape := ⟨2, ![256, 128]⟩
abbrev S_ : Shape := ⟨0, ![]⟩
abbrev S16x256 : Shape := ⟨2, ![16, 256]⟩
abbrev S16x128 : Shape := ⟨2, ![16, 128]⟩
abbrev S16x256x1x1 : Shape := ⟨4, ![16, 256, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S256x128, .f32⟩
  | .hbm, ⟨3, _⟩ => ⟨S_, .f32⟩
  | .hbm, ⟨4, _⟩ => ⟨S16x256, .f32⟩
  | .hbm, ⟨5, _⟩ => ⟨S_, .f32⟩
  | .hbm, ⟨6, _⟩ => ⟨S16x256, .f32⟩
  | .hbm, ⟨7, _⟩ => ⟨S16x256, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256x1x1, .f32⟩
  | .hbm, ⟨22, _⟩ => ⟨S16x256x128x128, .f32⟩
  | .hbm, ⟨23, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S_S16x128 : S_.BroadcastsInDim S16x128 (![] : Fin 0 → Fin S16x128.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S128x256_S16x128_1_1_0_0_n_n_wf : DotDims.WF S16x256 S128x256 S16x128 [1] [1] [0] [0] [] []
  dot_S16x128_S256x128_S16x256_1_1_0_0_n_n_wf : DotDims.WF S16x128 S256x128 S16x256 [1] [1] [0] [0] [] []

variable [Facts₀]

def dot_S16x256_S128x256_S16x128_1_1_0_0_n_n : DotDims S16x256 S128x256 S16x128 where
  lhsContracting := [1]
  rhsContracting := [1]
  lhsNonContracting := [0]
  rhsNonContracting := [0]
  lhsBatch := []
  rhsBatch := []
  wf := dot_S16x256_S128x256_S16x128_1_1_0_0_n_n_wf
def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf

class Facts : Prop extends Facts₀ where

variable [Facts]
-- ==== Proof.Gate.lean ====
/-
  The squeeze-and-excite gate, as ONE function of the pooled means.

  Both programs compute the gate from the [16, 256] array z of channel means with the same host operations, in
  the same order and on the same literals: h = max(z . w_sq^T, 0), o = h . w_ex^T, gate = 1 / (1 + exp(-o)).
  It is named here once, over the two contraction records and the two broadcast facts each program states for
  itself, so that the equivalence proof only ever has to show that the two programs feed it equal means: it is
  never opened.
-/
import Idealize.ShloMosaic.PureOps
import Idealize.ShloMosaic.PureOps.Ideal

noncomputable section

namespace Cert.Gate

open Idealize.ShloMosaic

abbrev S_ : Shape := ⟨0, ![]⟩
abbrev S16x256 : Shape := ⟨2, ![16, 256]⟩
abbrev S16x128 : Shape := ⟨2, ![16, 128]⟩
abbrev S128x256 : Shape := ⟨2, ![128, 256]⟩
abbrev S256x128 : Shape := ⟨2, ![256, 128]⟩

/-- The gate of the means `z`: two contractions with a rectifier between them, then the logistic function. -/
def gate (d1 : DotDims S16x256 S128x256 S16x128) (d2 : DotDims S16x128 S256x128 S16x256)
    (hb1 : S_.BroadcastsInDim S16x128 (![] : Fin 0 → Fin S16x128.rank))
    (hb2 : S_.BroadcastsInDim S16x256 (![] : Fin 0 → Fin S16x256.rank))
    (wsq : FVec Ideal S128x256 .f32) (wex : FVec Ideal S256x128 .f32) (z : FVec Ideal S16x256 .f32) :
    FVec Ideal S16x256 .f32 :=
  Host.divf (F := Ideal) (broadcastInDim S16x256 ![] hb2 (constant (F := Ideal) S_ .f32 0x3F800000#32))
    (addf (broadcastInDim S16x256 ![] hb2 (constant (F := Ideal) S_ .f32 0x3F800000#32))
      (Host.exp (F := Ideal) (Host.negf (F := Ideal) (Host.dotGeneral (F := Ideal) d2 none
        (maximumf (Host.dotGeneral (F := Ideal) d1 none z wsq)
          (broadcastInDim S16x128 ![] hb1 (constant (F := Ideal) S_ .f32 0x00000000#32)))
        wex))))

end Cert.Gate

end
-- ==== Proof.PoolPayload.lean ====
/-
  The pooling body at one grid point, read at an index.

  The body loads a [1, 256, 128, 128] block x, sums it over axis 2 (the rows of each channel's image), sums the
  result over its last axis (the columns), multiplies by the constant 2^(-14) and stores the [1, 256] row as a
  [1, 1, 256] block. So the stored block at (0, 0, c) is (sum over w of sum over h of x(0, c, h, w)) * 2^(-14).
-/
import proofs.«160127_j4123168604913_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pool

open Cert.KernelIdeal Cert.KernelIdeal.Gen Idealize.ShloMosaic Idealize.ShloMosaic.ValueIdx

/-- The sum over the rows h of channel c, at column w. -/
theorem sum_rows (x : FVec Ideal S1x256x128x128 .f32) (c : Fin 256) (w : Fin 128) :
    multiReduction (F := Ideal) .add [2] S1x256x128 x 0x00000000#32 reduces_S1x256x128x128_S1x256x128 (.inl rfl) rfl
        (ix3 (0 : Fin 1) c w)
      = ∑ h : Fin 128, x (ix4 (0 : Fin 1) c h w) := by
  refine (Ideal.multiReduction_add_single x 0x00000000#32 reduces_S1x256x128x128_S1x256x128 (.inl rfl) rfl
    (ix3 (0 : Fin 1) c w)).trans ?_
  refine Finset.sum_congr rfl fun h _ => congrArg x ?_
  funext e
  apply Fin.ext
  match e with
  | ⟨0, _⟩ => rfl
  | ⟨1, _⟩ => rfl
  | ⟨2, _⟩ => rfl
  | ⟨3, _⟩ => rfl

/-- The sum over the columns w of a [1, 256, 128] array, at channel c. -/
theorem sum_cols (v : FVec Ideal S1x256x128 .f32) (c : Fin 256) :
    multiReduction (F := Ideal) .add [2] S1x256 v 0x00000000#32 reduces_S1x256x128_S1x256 (.inl rfl) rfl
        (ix2 (0 : Fin 1) c)
      = ∑ w : Fin 128, v (ix3 (0 : Fin 1) c w) := by
  refine (Ideal.multiReduction_add_single v 0x00000000#32 reduces_S1x256x128_S1x256 (.inl rfl) rfl
    (ix2 (0 : Fin 1) c)).trans ?_
  refine Finset.sum_congr rfl fun w _ => congrArg v ?_
  funext e
  apply Fin.ext
  match e with
  | ⟨0, _⟩ => rfl
  | ⟨1, _⟩ => rfl
  | ⟨2, _⟩ => rfl

/-- The stored block at (0, 0, c): the channel's sum over columns of its sums over rows, times 2^(-14). -/
theorem pay_apply (x : Vec Ideal S1x256x128x128 .f32) (c : Fin 256) :
    k0_pay1 (F := Ideal) x (ix3 (0 : Fin 1) (0 : Fin 1) c)
      = (∑ w : Fin 128, ∑ h : Fin 128, x (ix4 (0 : Fin 1) c h w)) * Ideal.ofBits .f32 0x38800000#32 := by
  unfold k0_pay1
  refine (shapeCast_addUnit_apply ![1, 256] _ shapeCasts_S1x256_S1x1x256 (ix3 (0 : Fin 1) (0 : Fin 1) c)).trans ?_
  have e : (fun a : Fin 2 => (ix3 (0 : Fin 1) (0 : Fin 1) c) a.succ) = ix2 (0 : Fin 1) c :=
    funext fun a => by match a with | ⟨0, _⟩ => rfl | ⟨1, _⟩ => rfl
  rw [e]
  show multiReduction (F := Ideal) .add [2] S1x256 _ 0x00000000#32 reduces_S1x256x128_S1x256 (.inl rfl) rfl (ix2 (0 : Fin 1) c)
      * Ideal.ofBits .f32 0x38800000#32 = _
  rw [sum_cols]
  refine congrArg (· * Ideal.ofBits .f32 0x38800000#32) (Finset.sum_congr rfl fun w _ => ?_)
  exact sum_rows x c w

end Cert.KernelIdeal.Pool

end
-- ==== Proof.PoolRegion.lean ====
/-
  What the pooling region leaves in its output array.

  The grid has 16 points, one per batch entry b. At point b the input block is U(b, :, :, :) and the output block is
  row (b, 0, :) of the [16, 1, 256] result; the body writes there, for each channel c, the sum of U(b, c, h, w)
  over the columns w of the sums over the rows h, times 2^(-14). Each point writes its own row and every row is
  some point's, so after the region the result array is that function of U at every index.
-/
import proofs.«160127_j4123168604913_2_alg».proof.Proof.Gen.KernelIdeal.Frame
import proofs.«160127_j4123168604913_2_alg».proof.Proof.PoolPayload

set_option maxRecDepth 16384

noncomputable section

namespace Cert.KernelIdeal.Pool

open Cert.KernelIdeal Cert.KernelIdeal.Gen Idealize.ShloMosaic Idealize.ShloMosaic.TcCoe Idealize.ShloMosaic.ValueIdx Idealize.SL.Sem
open Idealize.ShloMosaic.Pipeline (Dat)

/-- The pooled array: at (b, 0, c), channel c of batch entry b summed over its image, times 2^(-14). -/
def pooled (U : FVec Ideal S16x256x128x128 .f32) : FVec Ideal S16x1x256 .f32 := fun i =>
  (∑ w : Fin 128, ∑ h : Fin 128, U (ix4 (i 0 : Fin 16) (i 2 : Fin 256) h w)) * Ideal.ofBits .f32 0x38800000#32

/-- One point's block is a row of the pooled array: if the loaded block x is U at batch entry b, the stored
    block at y is the pooled array at any index i on row b with y's channel. -/
theorem point_eq (x : Vec Ideal S1x256x128x128 .f32) (U : FVec Ideal S16x256x128x128 .f32) (b : Fin 16)
    (hx : ∀ (c : Fin 256) (h w : Fin 128), x (ix4 (0 : Fin 1) c h w) = U (ix4 b c h w))
    (y : S1x1x256.Idx) (i : S16x1x256.Idx) (hi0 : (i 0).val = b.val) (hi2 : (i 2).val = (y 2).val) :
    k0_pay1 (F := Ideal) x y = pooled U i := by
  obtain ⟨cc, rfl⟩ : ∃ cc : Fin 256, y = ix3 (0 : Fin 1) (0 : Fin 1) cc := ⟨y 2, by
    funext a
    apply Fin.ext
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl⟩
  rw [pay_apply]
  unfold pooled
  refine congrArg (· * Ideal.ofBits .f32 0x38800000#32) (Finset.sum_congr rfl fun w _ => Finset.sum_congr rfl fun h _ => ?_)
  rw [hx]
  refine congrArg U ?_
  funext a
  apply Fin.ext
  match a with
  | ⟨0, _⟩ => exact hi0.symm
  | ⟨1, _⟩ => exact hi2.symm
  | ⟨2, _⟩ => rfl
  | ⟨3, _⟩ => rfl

section Region
-- the buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: point t reads batch entry t whole and writes row t. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- A grid point as a batch entry. -/
def batchOf (t : Fin cfg0.N) : Fin 16 := ⟨t.val, lt_of_lt_of_eq t.isLt N_0⟩
/-- A batch entry as a grid point. -/
def pointOf (b : Fin 16) : Fin cfg0.N := ⟨b.val, lt_of_lt_of_eq b.isLt N_0.symm⟩

/-- The input block at point t is U at batch entry t. -/
theorem blk_read (c : Dev nD) (t : Fin cfg0.N) (cc : Fin 256) (h w : Fin 128) :
    iblk0 V c 0 t (ix4 (0 : Fin 1) cc h w) = V c main_arg0 (ix4 (batchOf t) cc h w) := by
  obtain ⟨e0, e1, e2, e3, -, -, -⟩ := idx_facts t
  show V c main_arg0 (((cfg0.win 0).blk t).view.emb (ix4 (0 : Fin 1) cc h w)) = V c main_arg0 (ix4 (batchOf t) cc h w)
  refine congrArg (V c main_arg0) ?_
  funext a
  apply Fin.ext
  match a with
  | ⟨0, _⟩ => show win0_0.index t (0 : Fin 4) * 1 + 1 * 0 = t.val; omega
  | ⟨1, _⟩ => show win0_0.index t (1 : Fin 4) * 256 + 1 * cc.val = cc.val; omega
  | ⟨2, _⟩ => show win0_0.index t (2 : Fin 4) * 128 + 1 * h.val = h.val; omega
  | ⟨3, _⟩ => show win0_0.index t (3 : Fin 4) * 128 + 1 * w.val = w.val; omega

/-- What point t writes back is row t of the pooled array of U as the region finds it. -/
theorem flushed_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz3]
  simp only [View.ld_unit_zero (S := S1x256x128x128) hz4]
  obtain ⟨-, -, -, -, f0, f1, f2⟩ := idx_facts t
  funext y
  show k0_pay1 (F := Ideal) (iblk0 V c 0 t) y = pooled (V c main_arg0) (((cfg0.win 1).blk t).view.emb y)
  refine point_eq (iblk0 V c 0 t) (V c main_arg0) (batchOf t) (fun cc h w => blk_read V c t cc h w) y _ ?_ ?_
  · have h0 : (y 0).val < 1 := (y 0).isLt
    show win0_1.index t (0 : Fin 3) * 1 + 1 * (y 0).val = t.val
    omega
  · show win0_1.index t (2 : Fin 3) * 256 + 1 * (y 2).val = (y 2).val
    omega

/-- An index of the result is in point t's block iff each coordinate is in the block's range on its axis. -/
theorem mem_blk (t : Fin cfg0.N) (i : S16x1x256.Idx) :
    i ∈ ((cfg0.win 1).blk t).view.set ↔ ∀ a : Fin 3, win0_1.index t a * S1x1x256.size a ≤ (i a).val
      ∧ (i a).val < win0_1.index t a * S1x1x256.size a + S1x1x256.size a := by
  show i ∈ ((View.whole main_v0).slice (win0_1.rect t)).set ↔ _
  rw [View.set_slice_whole, Rect.mem_set_unit]
  exact Iff.rfl

/-- Every index of the result is in the block of the point of its own row. -/
theorem cover (i : S16x1x256.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 256 := (i 2).isLt
  refine ⟨pointOf ⟨(i 0).val, hi0⟩, flush0_1 _, ?_⟩
  rw [mem_blk]
  obtain ⟨-, -, -, -, f0, f1, f2⟩ := idx_facts (pointOf ⟨(i 0).val, hi0⟩)
  have f0' : win0_1.index (pointOf ⟨(i 0).val, hi0⟩) (0 : Fin 3) = (i 0).val := f0
  intro a
  match a with
  | ⟨0, _⟩ =>
    show win0_1.index (pointOf ⟨(i 0).val, hi0⟩) (0 : Fin 3) * 1 ≤ (i 0).val
      ∧ (i 0).val < win0_1.index (pointOf ⟨(i 0).val, hi0⟩) (0 : Fin 3) * 1 + 1
    omega
  | ⟨1, _⟩ =>
    show win0_1.index (pointOf ⟨(i 0).val, hi0⟩) (1 : Fin 3) * 1 ≤ (i 1).val
      ∧ (i 1).val < win0_1.index (pointOf ⟨(i 0).val, hi0⟩) (1 : Fin 3) * 1 + 1
    omega
  | ⟨2, _⟩ =>
    show win0_1.index (pointOf ⟨(i 0).val, hi0⟩) (2 : Fin 3) * 256 ≤ (i 2).val
      ∧ (i 2).val < win0_1.index (pointOf ⟨(i 0).val, hi0⟩) (2 : Fin 3) * 256 + 256
    omega

/-- After the region the result array is the pooled array of U as the region found it. -/
theorem final (c : Dev nD) : (dat0 V c).arrAt 1 cfg0.N = pooled (V c main_arg0) :=
  (dat0 V c).arrAt_eq_of_cover 1 (pooled (V c main_arg0)) (fun t _ => flushed_eq V c t) cover

end Region

end Cert.KernelIdeal.Pool

end
-- ==== Proof.HostGate.lean ====
/-
  The host operations between the two regions, and what the multiply region is entered with.

  After the pooling region the result buffer holds the pooled array of the input and every argument is as
  launched. The host then views the [16, 1, 256] pooled array as [16, 256], applies the gate's operations to it
  and the two weight arrays, and lays the [16, 256] gate out as [16, 1, 256]. No host operation writes an
  argument, so the multiply region is entered with the input as launched and with that gate.
-/
import proofs.«160127_j4123168604913_2_alg».proof.Proof.Gen.KernelIdeal.Frame
import proofs.«160127_j4123168604913_2_alg».proof.Proof.Gate
import proofs.«160127_j4123168604913_2_alg».proof.Proof.PoolRegion
import Idealize.ShloMosaic.Lib.StableHlo.Run

set_option maxRecDepth 16384

noncomputable section

namespace Cert.KernelIdeal.HostGate

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The gate, laid out [16, 1, 256], as a function of the three argument arrays: the gate's operations on the
    pooled array of the input viewed [16, 256]. -/
def gate3 (U : FVec Ideal S16x256x128x128 .f32) (wsq : FVec Ideal S128x256 .f32) (wex : FVec Ideal S256x128 .f32) :
    FVec Ideal S16x1x256 .f32 :=
  broadcastInDim S16x1x256 ![0, 2] bcast_S16x256_S16x1x256_0_2
    (Cert.Gate.gate dot_S16x256_S128x256_S16x128_1_1_0_0_n_n dot_S16x128_S256x128_S16x256_1_1_0_0_n_n bcast_S_S16x128 bcast_S_S16x256
      wsq wex (shapeCast S16x256 (Pool.pooled U) shapeCasts_S16x1x256_S16x256))

/-- After the pooling region each argument is as launched, -/
theorem exit0_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
/-- and its result buffer holds the pooled array of the input as launched. -/
theorem exit0_v0 (c : Dev nD) :
    W1 m ρ c (Proc.devRef .tc main_v0) = Pool.pooled (m ((c : Thread nD τ).loc main_arg0)) :=
  (W1_arr m ρ c 1).trans (Pool.final (V0 m ρ) c)

/-- The multiply region is entered with the input as launched: no host operation writes it. -/
theorem entry_arg0 (c : Dev nD) : V4 m ρ c main_arg0 = m ((c : Thread nD τ).loc main_arg0) := by
  refine Eq.trans ?_ (exit0_arg0 m ρ c)
  show StableHlo.after hostOps1_2 (StableHlo.after hostOps1_1 (StableHlo.after hostOps1 (W1 m ρ c))) (Proc.devRef .tc main_arg0) = _
  dsimp only [hostOps1, hostOps1_1, hostOps1_2]
  after_results

/-- The multiply region is entered with the gate of the arguments as launched. -/
theorem entry_v11 (c : Dev nD) :
    V4 m ρ c main_v11 = gate3 (m ((c : Thread nD τ).loc main_arg0)) (m ((c : Thread nD τ).loc main_arg1))
      (m ((c : Thread nD τ).loc main_arg2)) := by
  unfold gate3
  rw [← exit0_arg1 m ρ c, ← exit0_arg2 m ρ c, ← exit0_v0 m ρ c]
  show StableHlo.after hostOps1_2 (StableHlo.after hostOps1_1 (StableHlo.after hostOps1 (W1 m ρ c))) (Proc.devRef .tc main_v11) = _
  dsimp only [hostOps1, hostOps1_1, hostOps1_2]
  after_results
  rfl

end Cert.KernelIdeal.HostGate

end
-- ==== Proof.MulPayload.lean ====
/-
  The multiply body at one grid point, read at an index.

  The body loads a [1, 1, 128] block s of the gate and a [1, 128, 128, 128] block x of the input, views s as
  [1, 128] and then as [1, 128, 1, 1], broadcasts that over the two image axes and multiplies. So the stored
  block at (0, c, h, w) is x(0, c, h, w) * s(0, 0, c): each channel's image scaled by that channel's gate.
-/
import proofs.«160127_j4123168604913_2_alg».proof.Proof.Gen.KernelIdeal.Skeleton
import Idealize.ShloMosaic.Lib.Pipeline.Value
import Idealize.ShloMosaic.Lib.ValueIdx

noncomputable section

namespace Cert.KernelIdeal.Mul

open Cert.KernelIdeal Cert.KernelIdeal.Gen Idealize.ShloMosaic Idealize.ShloMosaic.ValueIdx

/-- The gate block viewed [1, 128, 1, 1] and broadcast over the image axes, at (0, c, h, w), is s(0, 0, c). -/
theorem gate_apply (s : Vec Ideal S1x1x128 .f32) (c h w : Fin 128) :
    broadcastTo S1x128x128x128
        (shapeCast S1x128x1x1 (shapeCast S1x128x1x1 (shapeCast S1x128 s shapeCasts_S1x1x128_S1x128) shapeCasts_S1x128_S1x128x1x1)
          shapeCasts_S1x128x1x1_S1x128x1x1)
        broadcasts_S1x128x1x1_S1x128x128x128 (ix4 (0 : Fin 1) c h w)
      = s (ix3 (0 : Fin 1) (0 : Fin 1) c) := by
  rw [shapeCast_self]
  refine (broadcastTo_apply _ broadcasts_S1x128x1x1_S1x128x128x128 (ix4 (0 : Fin 1) c h w)
    (ix4 (0 : Fin 1) c (0 : Fin 1) (0 : Fin 1)) (fun a => ?_)).trans ?_
  · match a with
    | ⟨0, _⟩ => show (0 : Nat) = if (1 : Nat) = 1 then 0 else _; rw [if_pos rfl]
    | ⟨1, _⟩ => show c.val = if (128 : Nat) = 1 then 0 else c.val; rw [if_neg (by decide)]
    | ⟨2, _⟩ => show (0 : Nat) = if (1 : Nat) = 1 then 0 else _; rw [if_pos rfl]
    | ⟨3, _⟩ => show (0 : Nat) = if (1 : Nat) = 1 then 0 else _; rw [if_pos rfl]
  refine (shapeCast_apply _ shapeCasts_S1x128_S1x128x1x1 (ix4 (0 : Fin 1) c (0 : Fin 1) (0 : Fin 1)) (ix2 (0 : Fin 1) c) ?_).trans ?_
  · rw [Shape.rowMajor_val_two, Shape.rowMajor_val_four]
    show 0 * 128 + c.val = ((0 * 128 + c.val) * 1 + 0) * 1 + 0
    omega
  refine (shapeCast_dropUnit_apply ![1, 128] s shapeCasts_S1x1x128_S1x128 (ix2 (0 : Fin 1) c)).trans ?_
  refine congrArg s ?_
  funext a
  match a with
  | ⟨0, _⟩ => rfl
  | ⟨1, _⟩ => rfl
  | ⟨2, _⟩ => rfl

/-- The stored block at (0, c, h, w): the input there times channel c's gate. -/
theorem pay_apply (s : Vec Ideal S1x1x128 .f32) (x : Vec Ideal S1x128x128x128 .f32) (c h w : Fin 128) :
    k1_pay1 (F := Ideal) s x (ix4 (0 : Fin 1) c h w) = x (ix4 (0 : Fin 1) c h w) * s (ix3 (0 : Fin 1) (0 : Fin 1) c) := by
  unfold k1_pay1
  exact congrArg (x (ix4 (0 : Fin 1) c h w) * ·) (gate_apply s c h w)

end Cert.KernelIdeal.Mul

end
-- ==== Proof.MulRegion.lean ====
/-
  What the multiply region leaves in its output array.

  The grid is 16 x 2: point (b, k) reads the block U(b, 128 k + c, h, w) of the input and the block
  s(b, 0, 128 k + c) of the gate (c < 128), and writes the block of the output at the input block's place. The body
  writes x * s there, so each point's block is its block of the one array U(b, c, h, w) * s(b, 0, c); the 32 blocks
  tile the output, so after the region the output is that array at every index.
-/
import proofs.«160127_j4123168604913_2_alg».proof.Proof.Gen.KernelIdeal.Frame
import proofs.«160127_j4123168604913_2_alg».proof.Proof.MulPayload

set_option maxRecDepth 16384

noncomputable section

namespace Cert.KernelIdeal.Mul

open Cert.KernelIdeal Cert.KernelIdeal.Gen Idealize.ShloMosaic Idealize.ShloMosaic.TcCoe Idealize.ShloMosaic.ValueIdx Idealize.SL.Sem
open Idealize.ShloMosaic.Pipeline (Dat)

/-- The gated array: every channel's image times that channel's gate. -/
def scaled (U : FVec Ideal S16x256x128x128 .f32) (s : FVec Ideal S16x1x256 .f32) : FVec Ideal S16x256x128x128 .f32 :=
  fun i => U i * s (ix3 (i 0 : Fin 16) (0 : Fin 1) (i 1 : Fin 256))

/-- One point's block is a block of the gated array: if the loaded input block x at y is U at i, and the loaded
    gate block at y's channel is the gate at i's batch entry and channel, the stored block at y is the gated
    array at i. -/
theorem point_eq (s : Vec Ideal S1x1x128 .f32) (x : Vec Ideal S1x128x128x128 .f32)
    (U : FVec Ideal S16x256x128x128 .f32) (g : FVec Ideal S16x1x256 .f32)
    (y : S1x128x128x128.Idx) (i : S16x256x128x128.Idx) (hx : x y = U i)
    (hs : s (ix3 (0 : Fin 1) (0 : Fin 1) (y 1 : Fin 128)) = g (ix3 (i 0 : Fin 16) (0 : Fin 1) (i 1 : Fin 256))) :
    k1_pay1 (F := Ideal) s x y = scaled U g i := by
  obtain ⟨c, h, w, rfl⟩ : ∃ (c h w : Fin 128), y = ix4 (0 : Fin 1) c h w := ⟨y 1, y 2, y 3, by
    funext a
    apply Fin.ext
    match a with
    | ⟨0, _⟩ => have h0 : (y 0).val < 1 := (y 0).isLt; show (y 0).val = 0; omega
    | ⟨1, _⟩ => rfl
    | ⟨2, _⟩ => rfl
    | ⟨3, _⟩ => rfl⟩
  rw [pay_apply, hx]
  exact congrArg (U i * ·) hs

section Region
-- the buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the input block moves with the output block, the gate block sits at the
    output block's batch entry and channel block, and the output's block indices stay in their ranges. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 3) = win1_2.index t (0 : Fin 4) ∧ win1_1.index t (1 : Fin 3) = 0
    ∧ win1_1.index t (2 : Fin 3) = win1_2.index t (1 : Fin 4)
    ∧ win1_2.index t (2 : Fin 4) = 0 ∧ win1_2.index t (3 : Fin 4) = 0
    ∧ win1_2.index t (0 : Fin 4) ≤ 15 ∧ win1_2.index t (1 : Fin 4) ≤ 1 :=
  (by decide +kernel : ∀ t : Fin grid1.N, _)

/-- Every block of the output is some point's. -/
theorem idx_onto : ∀ (q0 : Fin 16) (q1 : Fin 2), ∃ t : Fin cfg1.N,
    win1_2.index t (0 : Fin 4) = q0.val ∧ win1_2.index t (1 : Fin 4) = q1.val :=
  (by decide +kernel : ∀ (q0 : Fin 16) (q1 : Fin 2), ∃ t : Fin grid1.N,
    win1_2.index t (0 : Fin 4) = q0.val ∧ win1_2.index t (1 : Fin 4) = q1.val)

/-- What point t writes back is its block of the gated array of the input and the gate as the region finds them. -/
theorem flushed_eq (c : Dev nD) (t : Fin cfg1.N) :
    (dat1 V c).flushed 2 t
      = ((cfg1.win 2).blk t).view.read (Elt Ideal) (scaled (V c main_arg0) (V c main_v11)) := by
  show (cfg1.win 2).cut (grid1.coords t) ((dat1 V c).after 2 t) = _
  rw [after1_2]
  unfold out1_2
  rw [View.canon_unit_zero hz4]
  simp only [View.ld_unit_zero (S := S1x1x128) hz3, View.ld_unit_zero (S := S1x128x128x128) hz4]
  obtain ⟨e0, e1, e2, e3, g0, g1, g2, o2, o3, -, -⟩ := idx_facts t
  funext y
  show k1_pay1 (F := Ideal) (iblk1 V c 1 t) (iblk1 V c 0 t) y
      = scaled (V c main_arg0) (V c main_v11) (((cfg1.win 2).blk t).view.emb y)
  have hy0 : (y 0).val < 1 := (y 0).isLt
  refine point_eq (iblk1 V c 1 t) (iblk1 V c 0 t) (V c main_arg0) (V c main_v11) y _ ?_ ?_
  · show V c main_arg0 (((cfg1.win 0).blk t).view.emb y) = V c main_arg0 (((cfg1.win 2).blk t).view.emb y)
    refine congrArg (V c main_arg0) ?_
    funext a
    apply Fin.ext
    match a with
    | ⟨0, _⟩ => show win1_0.index t (0 : Fin 4) * 1 + 1 * (y 0).val = win1_2.index t (0 : Fin 4) * 1 + 1 * (y 0).val; omega
    | ⟨1, _⟩ => show win1_0.index t (1 : Fin 4) * 128 + 1 * (y 1).val = win1_2.index t (1 : Fin 4) * 128 + 1 * (y 1).val; omega
    | ⟨2, _⟩ => show win1_0.index t (2 : Fin 4) * 128 + 1 * (y 2).val = win1_2.index t (2 : Fin 4) * 128 + 1 * (y 2).val; omega
    | ⟨3, _⟩ => show win1_0.index t (3 : Fin 4) * 128 + 1 * (y 3).val = win1_2.index t (3 : Fin 4) * 128 + 1 * (y 3).val; omega
  · show V c main_v11 (((cfg1.win 1).blk t).view.emb (ix3 (0 : Fin 1) (0 : Fin 1) (y 1 : Fin 128))) = V c main_v11 _
    refine congrArg (V c main_v11) ?_
    funext a
    apply Fin.ext
    match a with
    | ⟨0, _⟩ => show win1_1.index t (0 : Fin 3) * 1 + 1 * 0 = win1_2.index t (0 : Fin 4) * 1 + 1 * (y 0).val; omega
    | ⟨1, _⟩ => show win1_1.index t (1 : Fin 3) * 1 + 1 * 0 = 0; omega
    | ⟨2, _⟩ => show win1_1.index t (2 : Fin 3) * 128 + 1 * (y 1).val = win1_2.index t (1 : Fin 4) * 128 + 1 * (y 1).val; omega

/-- An index of the output is in point t's block iff each coordinate is in the block's range on its axis. -/
theorem mem_blk (t : Fin cfg1.N) (i : S16x256x128x128.Idx) :
    i ∈ ((cfg1.win 2).blk t).view.set ↔ ∀ a : Fin 4, win1_2.index t a * S1x128x128x128.size a ≤ (i a).val
      ∧ (i a).val < win1_2.index t a * S1x128x128x128.size a + S1x128x128x128.size a := by
  show i ∈ ((View.whole main_v12).slice (win1_2.rect t)).set ↔ _
  rw [View.set_slice_whole, Rect.mem_set_unit]
  exact Iff.rfl

/-- Every index of the output is in the block of the point of its batch entry and channel block. -/
theorem cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, q0, q1⟩ := idx_onto ⟨(i 0).val, hi0⟩ ⟨(i 1).val / 128, by omega⟩
  have q0' : win1_2.index t (0 : Fin 4) = (i 0).val := q0
  have q1' : win1_2.index t (1 : Fin 4) = (i 1).val / 128 := q1
  obtain ⟨-, -, -, -, -, -, -, o2, o3, -, -⟩ := idx_facts t
  refine ⟨t, flush1_2 t, ?_⟩
  rw [mem_blk]
  intro a
  match a with
  | ⟨0, _⟩ =>
    show win1_2.index t (0 : Fin 4) * 1 ≤ (i 0).val ∧ (i 0).val < win1_2.index t (0 : Fin 4) * 1 + 1
    omega
  | ⟨1, _⟩ =>
    show win1_2.index t (1 : Fin 4) * 128 ≤ (i 1).val ∧ (i 1).val < win1_2.index t (1 : Fin 4) * 128 + 128
    omega
  | ⟨2, _⟩ =>
    show win1_2.index t (2 : Fin 4) * 128 ≤ (i 2).val ∧ (i 2).val < win1_2.index t (2 : Fin 4) * 128 + 128
    omega
  | ⟨3, _⟩ =>
    show win1_2.index t (3 : Fin 4) * 128 ≤ (i 3).val ∧ (i 3).val < win1_2.index t (3 : Fin 4) * 128 + 128
    omega

/-- After the region the output array is the gated array of the input and the gate as the region found them. -/
theorem final (c : Dev nD) : (dat1 V c).arrAt 2 cfg1.N = scaled (V c main_arg0) (V c main_v11) :=
  (dat1 V c).arrAt_eq_of_cover 2 (scaled (V c main_arg0) (V c main_v11)) (fun t _ => flushed_eq V c t) cover

end Region

end Cert.KernelIdeal.Mul

end
-- ==== Proof.KernelRun.lean ====
/-
  The kernel program's run, with its result named.

  Every weakly fair execution of the program terminates without a fault. At the end every buffer that outlives the
  regions holds what the fold through the program's segments leaves in it: the pooling region's write-backs, the
  host operations, the multiply region's write-backs. Read at the result buffer, that is the gated array of the
  input as launched and the gate of the three arguments as launched; read at an argument, it is the argument as
  launched.
-/
import proofs.«160127_j4123168604913_2_alg».proof.Proof.Gen.KernelIdeal.Frame
import proofs.«160127_j4123168604913_2_alg».proof.Proof.HostGate
import proofs.«160127_j4123168604913_2_alg».proof.Proof.MulRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The program's result as a function of its three arguments: the input, each channel's image times the gate of
    that batch entry and channel. -/
def out (U : FVec Ideal S16x256x128x128 .f32) (wsq : FVec Ideal S128x256 .f32) (wex : FVec Ideal S256x128 .f32) :
    FVec Ideal S16x256x128x128 .f32 :=
  Mul.scaled U (HostGate.gate3 U wsq wex)

/-- What the fold through the segments leaves in the result buffer: the multiply region's output array, which is
    the gated array of what the region was entered with. -/
theorem out_eq (c : Dev nD) :
    W5 m ρ c (Proc.devRef .tc main_v12)
      = out (m ((c : Thread nD τ).loc main_arg0)) (m ((c : Thread nD τ).loc main_arg1)) (m ((c : Thread nD τ).loc main_arg2)) :=
  (W5_arr m ρ c 2).trans ((Mul.final (V4 m ρ) c).trans (by
    rw [HostGate.entry_arg0 m ρ c, HostGate.entry_v11 m ρ c]; rfl))

-- the launch theorem's implicit arguments are found by unifying its conclusion with this one, which takes unfolding
-- plain definitions in a metavariable's type
set_option backward.isDefEq.respectTransparency.types false in
/-- The run: from any memory with zero counters every weakly fair execution terminates, nothing faulting, with the
    result buffer at what the fold leaves there and the arguments as launched. -/
theorem run_fold : θ_run defs (onTc (τ := τ) (main (F := Ideal))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

/-- The run with the result named: the result buffer ends at `out` of the arguments as launched. -/
theorem run : θ_run defs (onTc (τ := τ) (main (F := Ideal))) ⟨m, fun _ => 0, ρ⟩ (fun r => ∀ c : Dev nD,
      r.2.mem ((c.tc : Thread nD τ).loc main_v12)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m ρ c), (h c).2⟩) (run_fold m ρ)

end Cert.KernelIdeal.Run

end
-- ==== Proof.LibReduceLast2.lean ====
/-
  A sum over the LAST TWO axes of a rank-4 array, as the host computes it, read at an index.

  The host's add-reduce of an array `x` of shape [a, b, c, d] over axes 2 and 3 holds, at the result index (p, q),
  the initial value plus the sum of `x` over every source index whose first two coordinates are (p, q). Those
  source indices are exactly the (p, q, k, l) with k < c and l < d, each once, so the sum is the iterated sum
  over k and then l. Addition on the extended reals is commutative and associative, so no finiteness is asked.
-/
import Idealize.ShloMosaic.PureOps.Ideal.Laws
import Idealize.ShloMosaic.Lib.ValueIdx

noncomputable section

namespace Cert.LibReduceLast2

open Idealize.ShloMosaic Idealize.ShloMosaic.ValueIdx

variable {a b c d : Nat}

/-- The result's axis 0 is the source's axis 0, and its axis 1 the source's axis 1: the kept axes, in order,
    whatever the four extents are. -/
theorem drop_val0 (h : (⟨4, ![a, b, c, d]⟩ : Shape).ReducesTo [2, 3] ⟨2, ![a, b]⟩)
    (i : (⟨4, ![a, b, c, d]⟩ : Shape).Idx) : (h.drop i ⟨0, Nat.zero_lt_two⟩).val = (i 0).val := rfl
theorem drop_val1 (h : (⟨4, ![a, b, c, d]⟩ : Shape).ReducesTo [2, 3] ⟨2, ![a, b]⟩)
    (i : (⟨4, ![a, b, c, d]⟩ : Shape).Idx) : (h.drop i ⟨1, Nat.one_lt_two⟩).val = (i 1).val := rfl

/-- Dropping axes 2 and 3 of (p, q, k, l) leaves (p, q). -/
theorem drop_ix4 (h : (⟨4, ![a, b, c, d]⟩ : Shape).ReducesTo [2, 3] ⟨2, ![a, b]⟩)
    (p : Fin a) (q : Fin b) (k : Fin c) (l : Fin d) : h.drop (ix4 p q k l) = ix2 p q := by
  funext e
  apply Fin.ext
  match e with
  | ⟨0, _⟩ => exact drop_val0 h (ix4 p q k l)
  | ⟨1, _⟩ => exact drop_val1 h (ix4 p q k l)

/-- A source index that drops to (p, q) is (p, q) followed by its own last two coordinates. -/
theorem eq_ix4_of_drop (h : (⟨4, ![a, b, c, d]⟩ : Shape).ReducesTo [2, 3] ⟨2, ![a, b]⟩)
    (p : Fin a) (q : Fin b) (i : (⟨4, ![a, b, c, d]⟩ : Shape).Idx) (hd : h.drop i = ix2 p q) :
    ix4 p q (i 2 : Fin c) (i 3 : Fin d) = i := by
  have h0 : (i 0).val = p.val := (drop_val0 h i).symm.trans (by rw [hd])
  have h1 : (i 1).val = q.val := (drop_val1 h i).symm.trans (by rw [hd])
  funext e
  apply Fin.ext
  match e with
  | ⟨0, _⟩ => exact h0.symm
  | ⟨1, _⟩ => exact h1.symm
  | ⟨2, _⟩ => rfl
  | ⟨3, _⟩ => rfl

/-- The host's sum over the last two axes, at (p, q): the initial value plus the iterated sum over both. -/
theorem hostReduceAdd_last2 (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ k : Fin c, ∑ l : Fin d, x (ix4 p q k l) := by
  unfold Ideal.hostReduceAdd
  congr 1
  rw [← Fintype.sum_prod_type' (f := fun (k : Fin c) (l : Fin d) => x (ix4 p q k l))]
  refine Finset.sum_nbij' (fun i => ((i 2 : Fin c), (i 3 : Fin d))) (fun kl => ix4 p q kl.1 kl.2) ?_ ?_ ?_ ?_ ?_
  · intro i _; exact Finset.mem_univ _
  · intro kl _; exact Finset.mem_filter.2 ⟨Finset.mem_univ _, drop_ix4 h p q kl.1 kl.2⟩
  · intro i hi; exact eq_ix4_of_drop h p q i (Finset.mem_filter.1 hi).2
  · intro kl _; rfl
  · intro i hi; exact congrArg x (eq_ix4_of_drop h p q i (Finset.mem_filter.1 hi).2).symm

end Cert.LibReduceLast2

end
-- ==== Proof.Consts.lean ====
/-
  The two float literals of the pooling step, as the extended reals they denote.

  The kernel multiplies a channel's sum by the f32 word 0x38800000, which is exactly 2^(-14) = 1/16384; the
  reference divides the same sum by the f32 word 0x46800000, which is exactly 2^14 = 16384 = 128 * 128. Division
  by a nonzero real is multiplication by its reciprocal on every extended real, the infinities included, so the
  two means are the same number whatever the sum is.
-/
import Idealize.ShloMosaic.PureOps.Ideal

noncomputable section

namespace Cert.Consts

open Idealize.ShloMosaic

/-- The kernel's factor: sign 0, exponent 113 - 127 = -14, mantissa 0. -/
theorem ofBits_inv_16384 : Ideal.ofBits .f32 0x38800000#32 = ((1 / 16384 : ℝ) : EReal) := by
  simp [Ideal.ofBits, Ideal.ieee, -EReal.coe_mul]; norm_num

/-- The reference's divisor: sign 0, exponent 141 - 127 = 14, mantissa 0. -/
theorem ofBits_16384 : Ideal.ofBits .f32 0x46800000#32 = ((16384 : ℝ) : EReal) := by
  simp [Ideal.ofBits, Ideal.ieee, -EReal.coe_mul]; norm_num

/-- Multiplying by 1/16384 is dividing by 16384, on every extended real. -/
theorem mul_inv_eq_div (x : EReal) :
    x * Ideal.ofBits .f32 0x38800000#32 = Ideal.div x (Ideal.ofBits .f32 0x46800000#32) := by
  rw [ofBits_inv_16384, ofBits_16384, Ideal.div_coe (by norm_num : (16384 : ℝ) ≠ 0)]

end Cert.Consts

end
-- ==== Proof.RefValue.lean ====
/-
  The reference, read at an index.

  The reference sums the input over both image axes at once, divides by 16384, applies the gate's operations and
  multiplies the input by the gate broadcast over the image axes. So its mean at (b, c) is the sum over h and w of
  U(b, c, h, w), divided by 16384; its gate is the shared gate function of those means; and its result at
  (b, c, h, w) is U(b, c, h, w) times the gate at (b, c).
-/
import proofs.«160127_j4123168604913_2_alg».proof.Proof.Gen.ReferenceIdeal.Read
import proofs.«160127_j4123168604913_2_alg».proof.Proof.Gate
import proofs.«160127_j4123168604913_2_alg».proof.Proof.LibReduceLast2
import proofs.«160127_j4123168604913_2_alg».proof.Proof.Consts

noncomputable section

namespace Cert.ReferenceIdeal.RefValue

open Cert.ReferenceIdeal Cert.ReferenceIdeal.Gen Cert.ReferenceIdeal.Read Idealize.ShloMosaic Idealize.ShloMosaic.ValueIdx

/-- The reference's mean at (b, c): the sum of the channel's image over rows and columns, divided by 16384. -/
theorem means_apply (U : FVec Ideal S16x256x128x128 .f32) (b : Fin 16) (c : Fin 256) :
    val_main_v2 (F := Ideal) U (ix2 b c)
      = Ideal.div (∑ h : Fin 128, ∑ w : Fin 128, U (ix4 b c h w)) (Ideal.ofBits .f32 0x46800000#32) := by
  rw [val_main_v2_apply, val_main_v1_apply, val_main_cst_0_apply]
  show Ideal.div (Ideal.hostReduceAdd reducesTo_S16x256x128x128_S16x256_d2_3 U (Ideal.ofBits .f32 0x00000000#32) (ix2 b c))
      (Ideal.ofBits .f32 0x46800000#32) = _
  rw [Cert.LibReduceLast2.hostReduceAdd_last2, Ideal.ofBits_zero_f32, zero_add]

/-- The reference's gate is the shared gate function of its means. -/
theorem gate_eq (U : FVec Ideal S16x256x128x128 .f32) (wsq : FVec Ideal S128x256 .f32) (wex : FVec Ideal S256x128 .f32) :
    val_main_v11 (F := Ideal) U wsq wex
      = Cert.Gate.gate dot_S16x256_S128x256_S16x128_1_1_0_0_n_n dot_S16x128_S256x128_S16x256_1_1_0_0_n_n bcast_S_S16x128 bcast_S_S16x256
          wsq wex (val_main_v2 (F := Ideal) U) := rfl

/-- The reference's result at an index: the input there times the gate at its batch entry and channel. -/
theorem result_apply (U : FVec Ideal S16x256x128x128 .f32) (wsq : FVec Ideal S128x256 .f32) (wex : FVec Ideal S256x128 .f32)
    (b : Fin 16) (c : Fin 256) (h w : Fin 128) :
    val_main_v14 (F := Ideal) U wsq wex (ix4 b c h w)
      = U (ix4 b c h w) * val_main_v11 (F := Ideal) U wsq wex (ix2 b c) := by
  rw [val_main_v14_apply, val_main_v13_apply, val_main_v12_apply]
  have e : idx_main_v12 (idx_main_v13 (ix4 b c h w)) = ix2 b c :=
    funext fun a => Fin.ext (by match a with | ⟨0, _⟩ => rfl | ⟨1, _⟩ => rfl)
  rw [e]
  rfl

end Cert.ReferenceIdeal.RefValue

end
-- ==== Proof.Bridge.lean ====
/-
  The two programs compute one function.

  Means. At (b, c) the kernel's pooled array, viewed [16, 256], is (sum over w of sum over h of U(b, c, h, w)) * 2^(-14)
  and the reference's mean is (sum over h of sum over w of U(b, c, h, w)) / 16384. The two iterated sums are equal
  because addition on the extended reals is commutative and associative, and multiplying by 2^(-14) is dividing by
  2^14 on every extended real; so no finiteness of U is used.
  Gate. Both programs apply the same gate function to those means: the contraction records and broadcast facts
  each states for itself are the same data.
  Result. At (b, c, h, w) both results are U(b, c, h, w) times the gate at (b, c).
-/
import proofs.«160127_j4123168604913_2_alg».proof.Proof.HostGate
import proofs.«160127_j4123168604913_2_alg».proof.Proof.MulRegion
import proofs.«160127_j4123168604913_2_alg».proof.Proof.RefValue

noncomputable section

namespace Cert.Bridge

open Idealize.ShloMosaic Idealize.ShloMosaic.ValueIdx
open Cert.KernelIdeal Cert.KernelIdeal.Gen

/-- The kernel's pooled array viewed [16, 256] is the reference's array of means. -/
theorem means_eq (U : FVec Ideal S16x256x128x128 .f32) :
    shapeCast S16x256 (Pool.pooled U) shapeCasts_S16x1x256_S16x256
      = Cert.ReferenceIdeal.Read.val_main_v2 (F := Ideal) U := by
  funext j
  obtain ⟨b, c, rfl⟩ : ∃ (b : Fin 16) (c : Fin 256), j = ix2 b c := ⟨j 0, j 1, eq_ix2 j⟩
  rw [Cert.ReferenceIdeal.RefValue.means_apply]
  refine (shapeCast_apply _ shapeCasts_S16x1x256_S16x256 (ix2 b c) (ix3 b (0 : Fin 1) c) ?_).trans ?_
  · rw [Shape.rowMajor_val_three, Shape.rowMajor_val_two]
    show (b.val * 1 + 0) * 256 + c.val = b.val * 256 + c.val
    omega
  show (∑ w : Fin 128, ∑ h : Fin 128, U (ix4 b c h w)) * Ideal.ofBits .f32 0x38800000#32 = _
  rw [Finset.sum_comm, Cert.Consts.mul_inv_eq_div]

/-- The kernel's result is the reference's: the input times the gate of equal means, index by index. -/
theorem out_eq_ref (U : FVec Ideal S16x256x128x128 .f32) (wsq : FVec Ideal S128x256 .f32) (wex : FVec Ideal S256x128 .f32) :
    Mul.scaled U (HostGate.gate3 U wsq wex) = Cert.ReferenceIdeal.Read.val_main_v14 (F := Ideal) U wsq wex := by
  funext i
  obtain ⟨b, c, h, w, rfl⟩ : ∃ (b : Fin 16) (c : Fin 256) (h w : Fin 128), i = ix4 b c h w :=
    ⟨i 0, i 1, i 2, i 3, eq_ix4 i⟩
  rw [Cert.ReferenceIdeal.RefValue.result_apply, Cert.ReferenceIdeal.RefValue.gate_eq, ← means_eq U]
  show U (ix4 b c h w) * HostGate.gate3 U wsq wex (ix3 b (0 : Fin 1) c) = _
  refine congrArg (U (ix4 b c h w) * ·) ?_
  unfold HostGate.gate3
  refine (broadcastInDim_apply _ bcast_S16x256_S16x1x256_0_2 _ (ix3 b (0 : Fin 1) c) (ix2 b c) (fun a => ?_)).trans ?_
  · match a with
    | ⟨0, _⟩ => show b.val = if (16 : Nat) = 1 then 0 else b.val; rw [if_neg (by decide)]
    | ⟨1, _⟩ => show c.val = if (256 : Nat) = 1 then 0 else c.val; rw [if_neg (by decide)]
  rfl

end Cert.Bridge

end
-- ==== Proof.lean ====
/-
  A squeeze-and-excite block: the kernel program and its reference compute the same array.

  For an input U of shape [16, 256, 128, 128] and weights w_sq [128, 256], w_ex [256, 128], both programs return
      out(b, c, h, w) = U(b, c, h, w) * g(b, c),   g = logistic(max(z . w_sq^T, 0) . w_ex^T),
  where z(b, c) is the mean of U(b, c, :, :) over the 128 x 128 image.

  The kernel program runs two regions with host operations between them. The first region, one grid point per
  batch entry, sums each channel's image over its rows and then over its columns and multiplies by 2^(-14). The
  host applies the gate's operations to the [16, 256] means. The second region, one grid point per batch entry and
  half of the channels, multiplies each channel's image by its gate. The reference sums over both image axes at
  once, divides by 16384 = 2^14, applies the same gate operations and multiplies.

  Over the extended reals the two differ only in the grouping of the image sum, which a commutative and
  associative addition does not see, and in multiplying by 2^(-14) where the reference divides by 2^14, which is
  the same operation on every extended real. So the equality holds for all inputs and the precondition is never
  opened. The modules:
    LibReduceLast2  the host's sum over the last two axes of a rank-4 array, read at an index
    Consts          the two literals, and x * 2^(-14) = x / 2^14
    PoolPayload, PoolRegion   the first region's body at an index; its output array after the region
    MulPayload, MulRegion     the second region's body at an index; its output array after the region
    Gate, HostGate  the gate as one function; what the host operations hand the second region
    KernelRun       the kernel program's run with its result named
    RefValue        the reference's means, gate and result at an index
    Bridge          the two results are one function
  The idealization rewrote no operation of the kernel, so there is nothing to preserve beyond the program's own
  text read over the extended reals.
-/
import proofs.«160127_j4123168604913_2_alg».proof.Defs
import proofs.«160127_j4123168604913_2_alg».proof.Proof.Gen.Kernel
import proofs.«160127_j4123168604913_2_alg».proof.Proof.Gen.Kernel.Skeleton
import proofs.«160127_j4123168604913_2_alg».proof.Proof.Gen.Kernel.Launch
import proofs.«160127_j4123168604913_2_alg».proof.Proof.Gen.Kernel.Points
import proofs.«160127_j4123168604913_2_alg».proof.Proof.Gen.Kernel.Frame
import proofs.«160127_j4123168604913_2_alg».proof.Proof.Gen.KernelIdeal
import proofs.«160127_j4123168604913_2_alg».proof.Proof.Gen.KernelIdeal.Skeleton
import proofs.«160127_j4123168604913_2_alg».proof.Proof.Gen.KernelIdeal.Launch
import proofs.«160127_j4123168604913_2_alg».proof.Proof.Gen.KernelIdeal.Points
import proofs.«160127_j4123168604913_2_alg».proof.Proof.Gen.KernelIdeal.Frame
import proofs.«160127_j4123168604913_2_alg».proof.Proof.Gen.ReferenceIdeal
import proofs.«160127_j4123168604913_2_alg».proof.Proof.Gen.ReferenceIdeal.Run
import proofs.«160127_j4123168604913_2_alg».proof.Proof.Gen.ReferenceIdeal.Read
import proofs.«160127_j4123168604913_2_alg».proof.Proof.Gen.Pre_finite_inputs
import proofs.«160127_j4123168604913_2_alg».proof.Proof.KernelRun
import proofs.«160127_j4123168604913_2_alg».proof.Proof.Bridge
import Idealize.ShloMosaic.Adequacy
import Idealize.ShloMosaic.Init

noncomputable section

namespace Cert.Proof

open Idealize.ShloMosaic Idealize.SL.Sem

/-- The kernel program, word by word, terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments, the kernel program's result array and the reference's are the
    same function of the arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.Bridge.out_eq_ref _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
